-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S2048x384 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x12288 : Shape := ⟨2, ![8192, 12288]⟩
abbrev S1000x12288 : Shape := ⟨2, ![1000, 12288]⟩
abbrev S_ : Shape := ⟨0, ![]⟩

class Facts : Prop where
  bcast_S_S8192x12288 : S_.BroadcastsInDim S8192x12288 (![] : Fin 0 → Fin S8192x12288.rank)
  reducesTo_S8192x12288_S_d0_1 : S8192x12288.ReducesTo [0, 1] S_
  h_S_ : 0 < S_.numel
  bcast_S_S1000x12288 : S_.BroadcastsInDim S1000x12288 (![] : Fin 0 → Fin S1000x12288.rank)
  reducesTo_S1000x12288_S_d0_1 : S1000x12288.ReducesTo [0, 1] S_

variable [Facts]

def fn {F : FTy → Type} [FloatOps F] (main_arg0 : FVec F S8192x12288 .f32) (main_arg1 : FVec F S1000x12288 .f32) : IVec S_ 1 :=
  let main_v0 : FVec F S8192x12288 .f32 := Host.absf main_arg0
  let main_cst : FVec F S_ .f32 := constant S_ .f32 0x7F800000#32
  let main_v1 : FVec F S8192x12288 .f32 := broadcastInDim S8192x12288 ![] bcast_S_S8192x12288 main_cst
  let main_v2 : IVec S8192x12288 1 := cmpf .olt main_v0 main_v1
  let main_c : IVec S_ 1 := constantI S_ 1 1#1
  let main_v3 : IVec S_ 1 := (fun x v => Host.reduce IntOp.andi x v reducesTo_S8192x12288_S_d0_1 h_S_) main_v2 main_c
  let main_v4 : FVec F S1000x12288 .f32 := Host.absf main_arg1
  let main_cst_0 : FVec F S_ .f32 := constant S_ .f32 0x7F800000#32
  let main_v5 : FVec F S1000x12288 .f32 := broadcastInDim S1000x12288 ![] bcast_S_S1000x12288 main_cst_0
  let main_v6 : IVec S1000x12288 1 := cmpf .olt main_v4 main_v5
  let main_c_1 : IVec S_ 1 := constantI S_ 1 1#1
  let main_v7 : IVec S_ 1 := (fun x v => Host.reduce IntOp.andi x v reducesTo_S1000x12288_S_d0_1 h_S_) main_v6 main_c_1
  let main_v8 : IVec S_ 1 := andi main_v3 main_v7
  main_v8
-- ==== Kernel.lean ====
abbrev S8192x12288 : Shape := ⟨2, ![8192, 12288]⟩
abbrev S1000x12288 : Shape := ⟨2, ![1000, 12288]⟩
abbrev S_ : Shape := ⟨0, ![]⟩
abbrev S1024x12288 : Shape := ⟨2, ![1024, 12288]⟩
abbrev S8192x1024 : Shape := ⟨2, ![8192, 1024]⟩
abbrev S2048x384 : Shape := ⟨2, ![2048, 384]⟩
abbrev S1024x384 : Shape := ⟨2, ![1024, 384]⟩
abbrev S2048x1024 : Shape := ⟨2, ![2048, 1024]⟩
abbrev S8192x1000 : Shape := ⟨2, ![8192, 1000]⟩

abbrev nBuf : Space → Nat
  | .hbm => 9
  | .vmem => 6
  | .smem => 0
  | _ => 0

abbrev bufTy : (tb : Table) → Fin (tcTables nBuf tb) → BufTy
  | .hbm, ⟨0, _⟩ => ⟨S8192x12288, .f32⟩
  | .hbm, ⟨1, _⟩ => ⟨S1000x12288, .f32⟩
  | .hbm, ⟨2, _⟩ => ⟨S_, .i32⟩
  | .hbm, ⟨3, _⟩ => ⟨S_, .f32⟩
  | .hbm, ⟨4, _⟩ => ⟨S1024x12288, .f32⟩
  | .hbm, ⟨5, _⟩ => ⟨S1024x12288, .f32⟩
  | .hbm, ⟨6, _⟩ => ⟨S1024x12288, .bf16⟩
  | .hbm, ⟨7, _⟩ => ⟨S8192x1024, .f32⟩
  | .hbm, ⟨8, _⟩ => ⟨S8192x1000, .f32⟩
  | .local _ .vmem, ⟨0, _⟩ => ⟨S2048x384, .f32⟩
  | .local _ .vmem, ⟨1, _⟩ => ⟨S2048x384, .f32⟩
  | .local _ .vmem, ⟨2, _⟩ => ⟨S1024x384, .bf16⟩
  | .local _ .vmem, ⟨3, _⟩ => ⟨S1024x384, .bf16⟩
  | .local _ .vmem, ⟨4, _⟩ => ⟨S2048x1024, .f32⟩
  | .local _ .vmem, ⟨5, _⟩ => ⟨S2048x1024, .f32⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  pads_S1000x12288_S1024x12288_0240_000 : S1000x12288.Pads (![0, 0] : Fin 2 → Nat) ![24, 0] ![0, 0] S1024x12288
  h_S_ : 0 < S_.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S2048x384_S2048x384_0_0 : ∀ a, (![0, 0] : Fin 2 → Nat) a + S2048x384.size a ≤ S2048x384.size a
  h_S2048x384 : 0 < S2048x384.numel
  shapeCasts_S2048x1024_S2048x1024 : S2048x1024.ShapeCasts S2048x1024
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  slices_S8192x1024_S8192x1000_0_0 : S8192x1024.Slices ![0, 0] S8192x1000
  dot_S2048x384_S1024x384_S2048x1024_1_1_0_0_n_n_wf : DotDims.WF S2048x384 S1024x384 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x384.size a ≤ S8192x12288.size a
  hwx0_0 : ∀ i : grid0.Coords, EltTy.bits .f32 = 32 ∨ (Rect.block (s := S8192x12288) S2048x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x12288.size a
  hwx0_1 : ∀ i : grid0.Coords, EltTy.bits .bf16 = 32 ∨ (Rect.block (s := S1024x12288) S1024x384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x1024.size a
  hwx0_2 : ∀ i : grid0.Coords, EltTy.bits .f32 = 32 ∨ (Rect.block (s := S8192x1024) S2048x1024.size (cc0_transform_2 i) (hinb0_2 i)).WholeWords (EltTy.packing .f32)

variable [Facts₀]

def dot_S2048x384_S1024x384_S2048x1024_1_1_0_0_n_n : DotDims S2048x384 S1024x384 S2048x1024 where
  lhsContracting := [1]
  rhsContracting := [1]
  lhsNonContracting := [0]
  rhsNonContracting := [0]
  lhsBatch := []
  rhsBatch := []
  wf := dot_S2048x384_S1024x384_S2048x1024_1_1_0_0_n_n_wf

abbrev win0_0 : Pipeline.Window sig grid0 :=
  Pipeline.Window.ofSpec (Memref.whole main_arg0) S2048x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x12288 : Shape := ⟨2, ![8192, 12288]⟩
abbrev S1000x12288 : Shape := ⟨2, ![1000, 12288]⟩
abbrev S8192x1000 : Shape := ⟨2, ![8192, 1000]⟩

abbrev nBuf : Space → Nat
  | .hbm => 5
  | .vmem => 0
  | .smem => 0
  | _ => 0

abbrev bufTy : (tb : Table) → Fin (tcTables nBuf tb) → BufTy
  | .hbm, ⟨0, _⟩ => ⟨S8192x12288, .f32⟩
  | .hbm, ⟨1, _⟩ => ⟨S1000x12288, .f32⟩
  | .hbm, ⟨2, _⟩ => ⟨S8192x12288, .f32⟩
  | .hbm, ⟨3, _⟩ => ⟨S1000x12288, .f32⟩
  | .hbm, ⟨4, _⟩ => ⟨S8192x1000, .f32⟩
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  dot_S8192x12288_S1000x12288_S8192x1000_1_1_0_0_n_n_wf : DotDims.WF S8192x12288 S1000x12288 S8192x1000 [1] [1] [0] [0] [] []

variable [Facts₀]

def dot_S8192x12288_S1000x12288_S8192x1000_1_1_0_0_n_n : DotDims S8192x12288 S1000x12288 S8192x1000 where
  lhsContracting := [1]
  rhsContracting := [1]
  lhsNonContracting := [0]
  rhsNonContracting := [0]
  lhsBatch := []
  rhsBatch := []
  wf := dot_S8192x12288_S1000x12288_S8192x1000_1_1_0_0_n_n_wf

class Facts : Prop extends Facts₀ where

variable [Facts]
-- ==== Proof.SignDot.lean ====
/-
  The function both programs compute, as one formula: for an input array x of 8192 rows by 12288 features and a weight
  array w of 1000 rows by 12288 features,
      out (b, c) = Σ_d sign (x (b, d)) · sign (w (c, d)),
  a sum over the 12288 features on the extended reals, where sign is -1 below zero, 0 at zero and 1 above it
  (the infinities included).

  The kernel reaches it in 32 steps of 384 features each, against a weight array already replaced by its signs and
  padded with rows of zeros to 1024 rows: after n steps an output entry holds the sum over the first 384·n features.
  Only commutativity and associativity of + on the extended reals are used, so no entry needs to be finite.
-/
import Idealize.ShloMosaic.PureOps.Ideal
import Idealize.ShloMosaic.PureOps.Ideal.Laws
import Idealize.ShloMosaic.Lib.ValueIdx

noncomputable section

namespace Cert.SignDot

open Idealize.ShloMosaic Idealize.ShloMosaic.ValueIdx

/-- A rank-2 array read at a pair of natural numbers: its entry when both are inside the extents, zero otherwise. -/
def at2 {n0 n1 : ℕ} (x : (⟨2, ![n0, n1]⟩ : Shape).Idx → EReal) (b d : ℕ) : EReal :=
  if h : b < n0 ∧ d < n1 then x (ix2 ⟨b, h.1⟩ ⟨d, h.2⟩) else 0

theorem at2_of_lt {n0 n1 : ℕ} (x : (⟨2, ![n0, n1]⟩ : Shape).Idx → EReal) {b d : ℕ} (hb : b < n0) (hd : d < n1) :
    at2 x b d = x (ix2 ⟨b, hb⟩ ⟨d, hd⟩) := dif_pos ⟨hb, hd⟩

theorem at2_val {n0 n1 : ℕ} (x : (⟨2, ![n0, n1]⟩ : Shape).Idx → EReal) (b : Fin n0) (d : Fin n1) :
    at2 x b.val d.val = x (ix2 b d) := dif_pos ⟨b.isLt, d.isLt⟩

/-- A sum over s·n consecutive natural numbers is the sum of its n consecutive blocks of s. -/
theorem sum_blocks {M : Type*} [AddCommMonoid M] (f : ℕ → M) (s : ℕ) :
    ∀ n : ℕ, ∑ k ∈ Finset.range n, ∑ j ∈ Finset.range s, f (s * k + j) = ∑ d ∈ Finset.range (s * n), f d
  | 0 => by simp
  | n + 1 => by rw [Finset.sum_range_succ, sum_blocks f s n, Nat.mul_succ, Finset.sum_range_add]

/-- What feature d contributes to the entry (b, c): the sign of x (b, d) times the prepared weight at (c, d). -/
def term (x : (⟨2, ![8192, 12288]⟩ : Shape).Idx → EReal) (wb : (⟨2, ![1024, 12288]⟩ : Shape).Idx → EReal) (b c d : ℕ) : EReal :=
  Ideal.sign (at2 x b d) * at2 wb c d

/-- The contribution of the 384 features of step k. -/
def stepSum (x : (⟨2, ![8192, 12288]⟩ : Shape).Idx → EReal) (wb : (⟨2, ![1024, 12288]⟩ : Shape).Idx → EReal) (b c k : ℕ) : EReal :=
  ∑ j ∈ Finset.range 384, term x wb b c (384 * k + j)

/-- The entry (b, c) after n steps: the contributions of the first n steps. -/
def part (x : (⟨2, ![8192, 12288]⟩ : Shape).Idx → EReal) (wb : (⟨2, ![1024, 12288]⟩ : Shape).Idx → EReal) (n b c : ℕ) : EReal :=
  ∑ k ∈ Finset.range n, stepSum x wb b c k

theorem part_one (x : (⟨2, ![8192, 12288]⟩ : Shape).Idx → EReal) (wb : (⟨2, ![1024, 12288]⟩ : Shape).Idx → EReal) (b c : ℕ) :
    part x wb 1 b c = stepSum x wb b c 0 := by
  unfold part; rw [Finset.sum_range_one]

theorem part_succ (x : (⟨2, ![8192, 12288]⟩ : Shape).Idx → EReal) (wb : (⟨2, ![1024, 12288]⟩ : Shape).Idx → EReal) (n b c : ℕ) :
    part x wb (n + 1) b c = part x wb n b c + stepSum x wb b c n := by
  unfold part; rw [Finset.sum_range_succ]

/-- After all 32 steps the entry holds the sum over all 12288 features. -/
theorem part_all (x : (⟨2, ![8192, 12288]⟩ : Shape).Idx → EReal) (wb : (⟨2, ![1024, 12288]⟩ : Shape).Idx → EReal) (b c : ℕ) :
    part x wb 32 b c = ∑ d ∈ Finset.range 12288, term x wb b c d :=
  sum_blocks (term x wb b c) 384 32

/-- The padded result: 8192 rows by 1024 columns, each entry the full sum against the prepared weights. -/
def padded (x : (⟨2, ![8192, 12288]⟩ : Shape).Idx → EReal) (wb : (⟨2, ![1024, 12288]⟩ : Shape).Idx → EReal) :
    (⟨2, ![8192, 1024]⟩ : Shape).Idx → EReal :=
  fun i => part x wb 32 (i 0).val (i 1).val

/-- The result: out (b, c) = Σ_d sign (x (b, d)) · sign (w (c, d)). -/
def out (x : (⟨2, ![8192, 12288]⟩ : Shape).Idx → EReal) (w : (⟨2, ![1000, 12288]⟩ : Shape).Idx → EReal) :
    (⟨2, ![8192, 1000]⟩ : Shape).Idx → EReal :=
  fun i => ∑ d : Fin 12288, Ideal.sign (x (ix2 (i 0) d)) * Ideal.sign (w (ix2 (i 1) d))

/-- Where the prepared weights are the signs of w on the first 1000 rows, the padded result's first 1000 columns are
    the result. -/
theorem padded_eq_out (x : (⟨2, ![8192, 12288]⟩ : Shape).Idx → EReal) (w : (⟨2, ![1000, 12288]⟩ : Shape).Idx → EReal)
    (wb : (⟨2, ![1024, 12288]⟩ : Shape).Idx → EReal)
    (hw : ∀ (c : Fin 1000) (d : Fin 12288), wb (ix2 ⟨c.val, by have := c.isLt; omega⟩ d) = Ideal.sign (w (ix2 c d)))
    (i : (⟨2, ![8192, 1000]⟩ : Shape).Idx) (k : (⟨2, ![8192, 1024]⟩ : Shape).Idx)
    (h0 : (k 0).val = (i 0).val) (h1 : (k 1).val = (i 1).val) :
    padded x wb k = out x w i := by
  unfold padded out
  rw [part_all, Finset.sum_range]
  refine Finset.sum_congr rfl fun d _ => ?_
  unfold term
  rw [h0, h1, at2_val x (i 0) d, at2_of_lt wb (by have := idx2_lt1 i; omega) d.isLt]
  exact congrArg _ (hw (i 1) d)

end Cert.SignDot

end
-- ==== Proof.Pieces.lean ====
/-
  What one run of the kernel body leaves in the output block, as a value.

  At a step that is not the first of its row block, the body reads the block acc that the step before left, and stores
  acc + (signs of the x block) · (weight block)ᵀ over the whole block. At the first step of a row block it first stores
  the zero block, reads that back, and stores 0 + (signs of the x block) · (weight block)ᵀ. Both are the body's one
  arithmetic term, applied to the carried block or to the zero block.
-/
import proofs.«170324_j73589969650227_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every access of the body starts at the origin of its buffer. -/
theorem origin : (![0, 0] : Fin 2 → Nat) = fun _ => 0 := funext fun a => by fin_cases a <;> rfl

/-- A later step of a row block: the block ends at the body's term of the x block, the carried block and the weight
    block. -/
theorem later_step (c : Dev nD) (i : grid0.Coords) (a2 : Memref sig .tc .vmem S2048x384 .f32) (h2 : a2.IsWhole)
    (a3 : Memref sig .tc .vmem S1024x384 .bf16) (h3 : a3.IsWhole) (a4 : Memref sig .tc .vmem S2048x1024 .f32) (h4 : a4.IsWhole)
    (hc : ¬cond0_0 i) (x0 : Vec F S2048x384 .f32) (x1 : Vec F S1024x384 .bf16) (acc : Vec F S2048x1024 .f32) :
    out0_B_2 c i a2 h2 a3 h3 a4 h4 hc x0 x1 acc = k0_pay2 x0 acc x1 := by
  unfold out0_B_2
  rw [View.read_writes_eq_canon _ _ _ (cover0_B_2 c i a2 h2 a3 h3 a4 h4 hc x0 x1 acc)]
  unfold kernelRun0_B
  dsimp only
  rw [View.canon_unit_zero origin]
  simp only [View.readAt_eq_ld, h2.read_unread, h3.read_unread, h4.read_unread, View.ld_unit_zero (S := S2048x384) origin,
    View.ld_unit_zero (S := S1024x384) origin, View.ld_unit_zero (S := S2048x1024) origin]

/-- The first step of a row block: the same term over the zero block the step has just stored. -/
theorem first_step (c : Dev nD) (i : grid0.Coords) (a2 : Memref sig .tc .vmem S2048x384 .f32) (h2 : a2.IsWhole)
    (a3 : Memref sig .tc .vmem S1024x384 .bf16) (h3 : a3.IsWhole) (a4 : Memref sig .tc .vmem S2048x1024 .f32) (h4 : a4.IsWhole)
    (hc : cond0_0 i) (x0 : Vec F S2048x384 .f32) (x1 : Vec F S1024x384 .bf16) :
    out0_A_2 c i a2 h2 a3 h3 a4 h4 hc x0 x1 = k0_pay2 x0 (k0_pay1 (F := F)) x1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S2048x1024) origin, View.readCov_unit_zero (S := S2048x1024) _ origin]
  simp only [View.readAt_eq_ld, h2.read_unread, h3.read_unread, View.ld_unit_zero (S := S2048x384) origin,
    View.ld_unit_zero (S := S1024x384) origin]

end Cert.KernelIdeal.Pieces

end
-- ==== Proof.Payload.lean ====
/-
  The body's arithmetic, entry by entry, on the extended reals.

  One run of the body on an x block (2048 rows, 384 features), a weight block (1024 rows, 384 features) and a carried
  output block acc (2048 by 1024) stores, at entry (r, c),
      acc (r, c) + Σ_j sign (x (r, j)) · w (c, j),      j over the block's 384 features.
  The body spells sign x as: where |x| > 0, the constant 1 carrying the order of x against 0 (-1 below, 1 otherwise),
  and x itself where |x| = 0; on the extended reals that is the sign function at every value, the infinities included.
  The change of float format before the product is the identity there, and the product of the two blocks into a zero
  accumulator is the plain sum over the contracted feature index.
-/
import proofs.«170324_j73589969650227_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-! The product contracts axis 1 of both blocks: its left operand is read at (output row, feature), its right operand at
    (output column, feature). -/

theorem lhs0 (i : S2048x1024.Idx) (q : dot_S2048x384_S1024x384_S2048x1024_1_1_0_0_n_n.contr.Idx) :
    (dot_S2048x384_S1024x384_S2048x1024_1_1_0_0_n_n.lhsIdx i q 0).val = (i 0).val := by
  unfold DotDims.lhsIdx
  rw [dif_neg (show ¬(0 : Fin S2048x384.rank) ∈ dot_S2048x384_S1024x384_S2048x1024_1_1_0_0_n_n.lhsBatch by decide), dif_pos (show (0 : Fin S2048x384.rank) ∈ dot_S2048x384_S1024x384_S2048x1024_1_1_0_0_n_n.lhsNonContracting by decide)]
  rfl
theorem lhs1 (i : S2048x1024.Idx) (q : dot_S2048x384_S1024x384_S2048x1024_1_1_0_0_n_n.contr.Idx) :
    (dot_S2048x384_S1024x384_S2048x1024_1_1_0_0_n_n.lhsIdx i q 1).val = (q ⟨0, by decide⟩).val :=
  dot_S2048x384_S1024x384_S2048x1024_1_1_0_0_n_n.lhsIdx_val_of_single rfl i q
theorem rhs0 (i : S2048x1024.Idx) (q : dot_S2048x384_S1024x384_S2048x1024_1_1_0_0_n_n.contr.Idx) :
    (dot_S2048x384_S1024x384_S2048x1024_1_1_0_0_n_n.rhsIdx i q 0).val = (i 1).val := by
  unfold DotDims.rhsIdx
  rw [dif_neg (show ¬(0 : Fin S1024x384.rank) ∈ dot_S2048x384_S1024x384_S2048x1024_1_1_0_0_n_n.rhsBatch by decide), dif_pos (show (0 : Fin S1024x384.rank) ∈ dot_S2048x384_S1024x384_S2048x1024_1_1_0_0_n_n.rhsNonContracting by decide)]
  rfl
theorem rhs1 (i : S2048x1024.Idx) (q : dot_S2048x384_S1024x384_S2048x1024_1_1_0_0_n_n.contr.Idx) :
    (dot_S2048x384_S1024x384_S2048x1024_1_1_0_0_n_n.rhsIdx i q 1).val = (q ⟨0, by decide⟩).val :=
  dot_S2048x384_S1024x384_S2048x1024_1_1_0_0_n_n.rhsIdx_val_of_single rfl i q

/-- The block stored at the first step of a row block is zero at every entry. -/
theorem pay1_apply (i : S2048x1024.Idx) : k0_pay1 (F := Ideal) i = 0 := by
  unfold k0_pay1
  exact Ideal.ofBits_zero_f32

/-- The stored block at entry (r, c): the carried entry plus the sum over the block's features of sign x · w. -/
theorem pay2_apply (x0 : Vec Ideal S2048x384 .f32) (acc : Vec Ideal S2048x1024 .f32) (x1 : Vec Ideal S1024x384 .bf16)
    (r : Fin 2048) (cc : Fin 1024) :
    k0_pay2 (F := Ideal) x0 acc x1 (ix2 r cc) = acc (ix2 r cc) + ∑ j : Fin 384, Ideal.sign (x0 (ix2 r j)) * x1 (ix2 cc j) := by
  unfold k0_pay2
  simp only [addf_apply, shapeCast_self, matmul, Ideal.matmul_constant_zero_apply]
  refine congrArg (acc (ix2 r cc) + ·) ?_
  rw [← Equiv.sum_comp (contrEquiv1 dot_S2048x384_S1024x384_S2048x1024_1_1_0_0_n_n 384 rfl rfl).symm]
  refine Finset.sum_congr rfl fun k _ => ?_
  have hk := contrEquiv1_symm_val dot_S2048x384_S1024x384_S2048x1024_1_1_0_0_n_n 384 rfl rfl k
  have el : dot_S2048x384_S1024x384_S2048x1024_1_1_0_0_n_n.lhsIdx (ix2 r cc) ((contrEquiv1 dot_S2048x384_S1024x384_S2048x1024_1_1_0_0_n_n 384 rfl rfl).symm k) = ix2 r k := funext fun a => Fin.ext (by
    match a with
    | ⟨0, _⟩ => exact lhs0 _ _
    | ⟨1, _⟩ => exact (lhs1 _ _).trans hk)
  have er : dot_S2048x384_S1024x384_S2048x1024_1_1_0_0_n_n.rhsIdx (ix2 r cc) ((contrEquiv1 dot_S2048x384_S1024x384_S2048x1024_1_1_0_0_n_n 384 rfl rfl).symm k) = ix2 cc k := funext fun a => Fin.ext (by
    match a with
    | ⟨0, _⟩ => exact rhs0 _ _
    | ⟨1, _⟩ => exact (rhs1 _ _).trans hk)
  rw [el, er]
  exact congrArg (· * x1 (ix2 cc k)) (Ideal.jnp_sign_eq_sign_f32 (x0 (ix2 r k)))

end Cert.KernelIdeal.Payload
end
-- ==== Proof.Blocks.lean ====
/-
  Which entries of the arrays a step sees.

  The 128 steps are numbered t = 32·i + k: row block i (2048 rows of x and of the output) and feature block k (384
  features). At step t the x block holds x (2048·i + r, 384·k + j), the weight block holds the prepared weights at
  (c, 384·k + j), all 1024 rows, and the output block is rows 2048·i … 2048·i + 2047 of the padded result, all 1024
  columns.
-/
import proofs.«170324_j73589969650227_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The block numbers of the three windows at step t: (t / 32, t % 32) for x, (0, t % 32) for the weights,
    (t / 32, 0) for the output. -/
theorem block_numbers : ∀ t : Fin cfg0.N,
    win0_0.index t (0 : Fin 2) = t.val / 32 ∧ win0_0.index t (1 : Fin 2) = t.val % 32
    ∧ win0_1.index t (0 : Fin 2) = 0 ∧ win0_1.index t (1 : Fin 2) = t.val % 32
    ∧ win0_2.index t (0 : Fin 2) = t.val / 32 ∧ win0_2.index t (1 : Fin 2) = 0 :=
  (by decide +kernel : ∀ t : Fin grid0.N,
    win0_0.index t (0 : Fin 2) = t.val / 32 ∧ win0_0.index t (1 : Fin 2) = t.val % 32
    ∧ win0_1.index t (0 : Fin 2) = 0 ∧ win0_1.index t (1 : Fin 2) = t.val % 32
    ∧ win0_2.index t (0 : Fin 2) = t.val / 32 ∧ win0_2.index t (1 : Fin 2) = 0)

/-- The x block at step t, entry (r, j), is x at row 2048·(t / 32) + r, feature 384·(t % 32) + j. -/
theorem x_block (c : Dev nD) (t : Fin cfg0.N) (r : Fin 2048) (j : Fin 384)
    (hb : 2048 * (t.val / 32) + r.val < 8192) (hd : 384 * (t.val % 32) + j.val < 12288) :
    (iblk m c 0 t : Vec F S2048x384 .f32) (ix2 r j)
      = (V m c main_arg0 : S8192x12288.Idx → F .f32) (ix2 ⟨2048 * (t.val / 32) + r.val, hb⟩ ⟨384 * (t.val % 32) + j.val, hd⟩) := by
  obtain ⟨h0, h1, -, -, -, -⟩ := block_numbers t
  unfold iblk
  rw [View.read_apply]
  show V m c main_arg0 _ = V m c main_arg0 _
  congr 1
  funext a
  apply Fin.ext
  match a with
  | ⟨0, _⟩ => show win0_0.index t 0 * 2048 + 1 * r.val = 2048 * (t.val / 32) + r.val; rw [h0]; omega
  | ⟨1, _⟩ => show win0_0.index t 1 * 384 + 1 * j.val = 384 * (t.val % 32) + j.val; rw [h1]; omega

/-- The weight block at step t, entry (cc, j), is the prepared weight array at row cc, feature 384·(t % 32) + j. -/
theorem w_block (c : Dev nD) (t : Fin cfg0.N) (cc : Fin 1024) (j : Fin 384) (hd : 384 * (t.val % 32) + j.val < 12288) :
    (iblk m c 1 t : Vec F S1024x384 .bf16) (ix2 cc j)
      = (V m c main_v2 : S1024x12288.Idx → F .bf16) (ix2 cc ⟨384 * (t.val % 32) + j.val, hd⟩) := by
  obtain ⟨-, -, h0, h1, -, -⟩ := block_numbers t
  unfold iblk
  rw [View.read_apply]
  show V m c main_v2 _ = V m c main_v2 _
  congr 1
  funext a
  apply Fin.ext
  match a with
  | ⟨0, _⟩ => show win0_1.index t 0 * 1024 + 1 * cc.val = cc.val; rw [h0]; omega
  | ⟨1, _⟩ => show win0_1.index t 1 * 384 + 1 * j.val = 384 * (t.val % 32) + j.val; rw [h1]; omega

end Cert.KernelIdeal.Blocks

end
-- ==== Proof.Accum.lean ====
/-
  The running sum across the steps.

  Within row block i the output block is carried from step to step: the first step (k = 0) leaves the step's own sum
  Σ_j sign x · w over its 384 features, every later step adds its own to what it found. So after step t = 32·i + k the
  entry (r, c) of the block holds the sum over the first 384·(k + 1) features, of sign (x (2048·i + r, d)) times the
  prepared weight at (c, d). By induction on the step number.
-/
import proofs.«170324_j73589969650227_2_alg».proof.Proof.SignDot
import proofs.«170324_j73589969650227_2_alg».proof.Proof.Pieces
import proofs.«170324_j73589969650227_2_alg».proof.Proof.Payload
import proofs.«170324_j73589969650227_2_alg».proof.Proof.Blocks

noncomputable section

open Idealize.ShloMosaic Idealize.ShloMosaic.TcCoe Idealize.SL.Sem Idealize.ShloMosaic.ValueIdx

namespace Cert.KernelIdeal.Accum

open Cert.KernelIdeal Cert.KernelIdeal.Gen Cert.SignDot

variable (m : (ℓ : Loc nD τ sig) → Buf (Elt Ideal) ℓ)

/-- The input array x, and the prepared weight array (signs of w, padded with zero rows), as the kernel finds them. -/
abbrev xArr (c : Dev nD) : (⟨2, ![8192, 12288]⟩ : Shape).Idx → EReal := V m c main_arg0
abbrev wArr (c : Dev nD) : (⟨2, ![1024, 12288]⟩ : Shape).Idx → EReal := V m c main_v2

/-- What one step adds to the entry (r, cc) of its output block, from its x block and its weight block. -/
def stepVal (x0 : Vec Ideal S2048x384 .f32) (x1 : Vec Ideal S1024x384 .bf16) (r : Fin 2048) (cc : Fin 1024) : EReal :=
  ∑ j : Fin 384, Ideal.sign (x0 (ix2 r j)) * x1 (ix2 cc j)

/-- Over the zero block the body's term is the step's own sum; -/
theorem first_val (x0 : Vec Ideal S2048x384 .f32) (x1 : Vec Ideal S1024x384 .bf16) (r : Fin 2048) (cc : Fin 1024) :
    k0_pay2 (F := Ideal) x0 (k0_pay1 (F := Ideal)) x1 (ix2 r cc) = stepVal x0 x1 r cc := by
  rw [Payload.pay2_apply, Payload.pay1_apply, zero_add]
  rfl

/-- over a carried block it is the carried entry plus the step's sum. -/
theorem later_val (x0 : Vec Ideal S2048x384 .f32) (acc : Vec Ideal S2048x1024 .f32) (x1 : Vec Ideal S1024x384 .bf16)
    (r : Fin 2048) (cc : Fin 1024) :
    k0_pay2 (F := Ideal) x0 acc x1 (ix2 r cc) = acc (ix2 r cc) + stepVal x0 x1 r cc :=
  Payload.pay2_apply x0 acc x1 r cc

/-- The sum step t adds, in terms of the whole arrays: features 384·(t % 32) … of row 2048·(t / 32) + r of x against
    row cc of the prepared weights. -/
theorem step_eq (c : Dev nD) (t : Fin cfg0.N) (r : Fin 2048) (cc : Fin 1024) :
    stepVal (iblk m c 0 t) (iblk m c 1 t) r cc
      = stepSum (xArr m c) (wArr m c) (2048 * (t.val / 32) + r.val) cc.val (t.val % 32) := by
  have hN : t.val < 128 := lt_of_lt_of_eq t.isLt (show cfg0.N = 128 from N_0)
  unfold stepVal stepSum
  rw [Finset.sum_range]
  refine Finset.sum_congr rfl fun j _ => ?_
  have hb : 2048 * (t.val / 32) + r.val < 8192 := by omega
  have hd : 384 * (t.val % 32) + j.val < 12288 := by omega
  unfold term
  rw [at2_of_lt _ hb hd, at2_of_lt _ cc.isLt hd, Blocks.x_block m c t r j hb hd, Blocks.w_block m c t cc j hd]

/-- A step that opens a row block leaves its own sum. -/
theorem opening (c : Dev nD) (t : Fin cfg0.N) (h0 : t.val % 32 = 0) (r : Fin 2048) (cc : Fin 1024) :
    outsAt0 m c t.val t.isLt (ix2 r cc)
      = stepSum (xArr m c) (wArr m c) (2048 * (t.val / 32) + r.val) cc.val (t.val % 32) :=
  (congrFun ((outsAt0_A m c t h0).trans
      (Pieces.first_step c (grid0.coords t) (ms0_0 t) (hs0_0 t) (ms0_1 t) (hs0_1 t) (ms0_2 t) (hs0_2 t) ((hcond0_0 t).mpr h0)
        (iblk m c 0 t) (iblk m c 1 t))) (ix2 r cc)).trans
    ((first_val (iblk m c 0 t) (iblk m c 1 t) r cc).trans (step_eq m c t r cc))

/-- Any other step adds its sum to what the step before left. -/
theorem continuing (c : Dev nD) (t : Fin cfg0.N) (h0 : ¬t.val % 32 = 0) (r : Fin 2048) (cc : Fin 1024) :
    outsAt0 m c t.val t.isLt (ix2 r cc)
      = outsAt0 m c (t.val - 1) (Nat.lt_of_le_of_lt (Nat.sub_le _ _) t.isLt) (ix2 r cc)
        + stepSum (xArr m c) (wArr m c) (2048 * (t.val / 32) + r.val) cc.val (t.val % 32) :=
  (congrFun ((outsAt0_B m c t h0).trans
      (Pieces.later_step c (grid0.coords t) (ms0_0 t) (hs0_0 t) (ms0_1 t) (hs0_1 t) (ms0_2 t) (hs0_2 t) (fun h => h0 ((hcond0_0 t).mp h))
        (iblk m c 0 t) (iblk m c 1 t) (outsAt0 m c (t.val - 1) (Nat.lt_of_le_of_lt (Nat.sub_le _ _) t.isLt)))) (ix2 r cc)).trans
    ((later_val (iblk m c 0 t) (outsAt0 m c (t.val - 1) (Nat.lt_of_le_of_lt (Nat.sub_le _ _) t.isLt)) (iblk m c 1 t) r cc).trans
      (congrArg (outsAt0 m c (t.val - 1) (Nat.lt_of_le_of_lt (Nat.sub_le _ _) t.isLt) (ix2 r cc) + ·) (step_eq m c t r cc)))

/-- After step n the entry (r, cc) of the output block holds the first n % 32 + 1 step sums of its row. -/
theorem acc_eq (c : Dev nD) : ∀ (n : ℕ) (hn : n < cfg0.N) (r : Fin 2048) (cc : Fin 1024),
    outsAt0 m c n hn (ix2 r cc) = part (xArr m c) (wArr m c) (n % 32 + 1) (2048 * (n / 32) + r.val) cc.val
  | 0, hn, r, cc => (opening m c ⟨0, hn⟩ rfl r cc).trans (part_one _ _ _ _).symm
  | n + 1, hn, r, cc => by
    by_cases h0 : (n + 1) % 32 = 0
    · refine (opening m c ⟨n + 1, hn⟩ h0 r cc).trans ?_
      show stepSum _ _ (2048 * ((n + 1) / 32) + r.val) cc.val ((n + 1) % 32) = _
      rw [h0]
      exact (part_one _ _ _ _).symm
    · refine (continuing m c ⟨n + 1, hn⟩ h0 r cc).trans ?_
      show outsAt0 m c n _ (ix2 r cc) + stepSum _ _ (2048 * ((n + 1) / 32) + r.val) cc.val ((n + 1) % 32) = _
      rw [acc_eq c n _ r cc]
      have e1 : (n + 1) % 32 = n % 32 + 1 := by omega
      have e2 : (n + 1) / 32 = n / 32 := by omega
      rw [e1, e2]
      exact (part_succ _ _ _ _ _).symm

end Cert.KernelIdeal.Accum

end
-- ==== Proof.Weights.lean ====
/-
  The weight array the kernel reads.

  Before the kernel runs, the host pads w (1000 rows) with 24 rows of zeros to 1024 rows, takes signs, and changes the
  float format. On the extended reals the change of format is the identity, so on each of the first 1000 rows the
  prepared array holds sign (w (c, d)). (What the 24 padding rows hold does not matter: the result keeps only the
  first 1000 columns.)
-/
import proofs.«170324_j73589969650227_2_alg».proof.Proof.Gen.KernelIdeal.Frame
import Idealize.ShloMosaic.Lib.Pipeline.Value
import Idealize.ShloMosaic.Lib.StableHlo.Run
import Idealize.ShloMosaic.Lib.ValueIdx
import Idealize.ShloMosaic.PureOps.Ideal.Laws

noncomputable section

open Idealize.ShloMosaic Idealize.ShloMosaic.TcCoe Idealize.SL.Sem Idealize.ShloMosaic.ValueIdx Idealize.ShloMosaic.StableHlo

namespace Cert.KernelIdeal.Weights

open Cert.KernelIdeal Cert.KernelIdeal.Gen

/-- The array the kernel's weight window reads is the host's pad, sign and format change of the argument w. -/
theorem prepared {F : FTy → Type} [FloatOps F] (m : (ℓ : Loc nD τ sig) → Buf (Elt F) ℓ) (c : Dev nD) :
    (V m c main_v2 : S1024x12288.Idx → F .bf16)
      = truncf .bf16 (Host.sign (pad S1024x12288 ![0, 0] ![24, 0] ![0, 0] (m ((c : Thread nD τ).loc main_arg1))
          (sitofp (F := F) .f32 (constantI S_ 32 0#32)) pads_S1000x12288_S1024x12288_0240_000 h_S_)) bitsLt_bf16_f32 := by
  dsimp only [V, V0]
  simp only [hostOps0, hostOps0_1, hostOps0_2, List.flatten_cons, List.flatten_nil, List.append_nil, List.cons_append,
    List.nil_append]
  after_results
  rfl

/-- On the first 1000 rows it holds the signs of w. -/
theorem prepared_apply (m : (ℓ : Loc nD τ sig) → Buf (Elt Ideal) ℓ) (c : Dev nD) (cc : Fin 1000) (d : Fin 12288)
    (h : cc.val < 1024) :
    (V m c main_v2 : S1024x12288.Idx → Ideal .bf16) (ix2 ⟨cc.val, h⟩ d)
      = Ideal.sign ((m ((c : Thread nD τ).loc main_arg1) : S1000x12288.Idx → Ideal .f32) (ix2 cc d)) := by
  rw [prepared]
  show Ideal.sign (pad S1024x12288 ![0, 0] ![24, 0] ![0, 0] (m ((c : Thread nD τ).loc main_arg1))
    (sitofp (F := Ideal) .f32 (constantI S_ 32 0#32)) pads_S1000x12288_S1024x12288_0240_000 h_S_ (ix2 ⟨cc.val, h⟩ d)) = _
  refine congrArg Ideal.sign ?_
  unfold pad
  split
  · refine congrArg _ (funext fun a => Fin.ext ?_)
    match a with
    | ⟨0, _⟩ => show (cc.val - 0) / (0 + 1) = cc.val; rw [Nat.sub_zero, Nat.div_one]
    | ⟨1, _⟩ => show (d.val - 0) / (0 + 1) = d.val; rw [Nat.sub_zero, Nat.div_one]
  · rename_i hin
    refine absurd (fun a => ?_) hin
    match a with
    | ⟨0, _⟩ =>
      show 0 ≤ cc.val ∧ (cc.val - 0) % (0 + 1) = 0 ∧ (cc.val - 0) / (0 + 1) < 1000
      refine ⟨Nat.zero_le _, Nat.mod_one _, ?_⟩
      rw [Nat.sub_zero, Nat.div_one]; exact cc.isLt
    | ⟨1, _⟩ =>
      show 0 ≤ d.val ∧ (d.val - 0) % (0 + 1) = 0 ∧ (d.val - 0) / (0 + 1) < 12288
      refine ⟨Nat.zero_le _, Nat.mod_one _, ?_⟩
      rw [Nat.sub_zero, Nat.div_one]; exact d.isLt

end Cert.KernelIdeal.Weights

end
-- ==== Proof.Result.lean ====
/-
  The kernel's result array.

  The output block of row block i is written back once, after its last step t = 32·i + 31, when every entry holds the
  sum over all 32·384 = 12288 features: rows 2048·i … 2048·i + 2047 of the padded result, all 1024 columns. The four
  row blocks tile the 8192 rows, so the padded array ends holding the padded result everywhere; the host's slice
  after the kernel keeps columns 0 … 999, where the prepared weights are the signs of w: the result is
  out (b, c) = Σ_d sign (x (b, d)) · sign (w (c, d)).
-/
import proofs.«170324_j73589969650227_2_alg».proof.Proof.Accum
import proofs.«170324_j73589969650227_2_alg».proof.Proof.Weights
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Result

open Cert.KernelIdeal Cert.KernelIdeal.Gen Cert.SignDot Cert.KernelIdeal.Accum

variable (m : (ℓ : Loc nD τ sig) → Buf (Elt Ideal) ℓ) (ρ : Dev nD → PrngReg)

/-- The padded result, as contents of the kernel's output array. -/
abbrev paddedArr (c : Dev nD) : Buf (Elt Ideal) ((c : Thread nD τ).loc main_v3) := padded (xArr m c) (wArr m c)

/-- After the last step of its row block, the output block is the padded result on the block's rows. -/
theorem last_step_block (c : Dev nD) (t : Fin cfg0.N) (h31 : t.val % 32 = 31) (y : S2048x1024.Idx) (k : S8192x1024.Idx)
    (hk0 : (k 0).val = 2048 * (t.val / 32) + (y 0).val) (hk1 : (k 1).val = (y 1).val) :
    outsAt0 m c t.val t.isLt y = padded (xArr m c) (wArr m c) k := by
  obtain ⟨r, cc, rfl⟩ : ∃ (r : Fin 2048) (cc : Fin 1024), y = ix2 r cc := ⟨y 0, y 1, eq_ix2 y⟩
  rw [acc_eq m c t.val t.isLt r cc, h31]
  unfold padded
  rw [hk0, hk1]

/-- What a writing step writes back is its block of the padded result. -/
theorem flushed_eq (c : Dev nD) (t : Fin cfg0.N) (hf : (cfg0.win 2).flush t = true) :
    (dats m 0 c).flushed 2 t = ((cfg0.win 2).blk t).view.read (Elt Ideal) (paddedArr m c) := by
  have h31 : t.val % 32 = 31 := (flush0_2 t).mp hf
  obtain ⟨-, -, -, -, e0, e1⟩ := Blocks.block_numbers t
  show (cfg0.win 2).cut (grid0.coords t) ((dats m 0 c).after 2 t) = _
  rw [after0_2]
  funext j
  show outsAt0 m c t.val t.isLt j = padded (xArr m c) (wArr m c) (((cfg0.win 2).blk t).view.emb j)
  refine last_step_block m c t h31 j _ ?_ ?_
  · show win0_2.index t (0 : Fin 2) * 2048 + 1 * (j 0).val = 2048 * (t.val / 32) + (j 0).val
    rw [e0]; omega
  · show win0_2.index t (1 : Fin 2) * 1024 + 1 * (j 1).val = (j 1).val
    rw [e1]; omega

/-- An index of the padded array is in step t's block iff each coordinate is in the block's range on its axis. -/
theorem mem_blk (t : Fin cfg0.N) (i : S8192x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v3).slice (win0_2.rect t)).set ↔ _
  rw [View.set_slice_whole, Rect.mem_set_unit]
  exact Iff.rfl

/-- Row b of the padded array is written back by the last step of row block b / 2048. -/
theorem covered (i : S8192x1024.Idx) :
    ∃ t : Fin cfg0.N, (cfg0.win 2).flush t = true ∧ i ∈ ((cfg0.win 2).blk t).view.set := by
  have hi0 : (i 0).val < 8192 := idx2_lt0 i
  have hi1 : (i 1).val < 1024 := idx2_lt1 i
  have hN : cfg0.N = 128 := N_0
  let t : Fin cfg0.N := ⟨32 * ((i 0).val / 2048) + 31, by rw [hN]; omega⟩
  have ht : t.val = 32 * ((i 0).val / 2048) + 31 := rfl
  obtain ⟨-, -, -, -, e0, e1⟩ := Blocks.block_numbers t
  refine ⟨t, (flush0_2 t).mpr (by rw [ht]; omega), ?_⟩
  rw [mem_blk]
  intro a
  match a with
  | ⟨0, _⟩ =>
    show win0_2.index t (0 : Fin 2) * 2048 ≤ (i 0).val ∧ (i 0).val < win0_2.index t (0 : Fin 2) * 2048 + 2048
    rw [e0, ht]; omega
  | ⟨1, _⟩ =>
    show win0_2.index t (1 : Fin 2) * 1024 ≤ (i 1).val ∧ (i 1).val < win0_2.index t (1 : Fin 2) * 1024 + 1024
    rw [e1]; omega

/-- So the kernel's output array ends holding the padded result. -/
theorem final (c : Dev nD) : (dats m 0 c).arrAt 2 cfg0.N = paddedArr m c :=
  (dats m 0 c).arrAt_eq_of_cover 2 (paddedArr m c) (flushed_eq m c) covered

/-- The host's slice after the kernel reads the first 1000 columns of it. -/
theorem tail_eq (c : Dev nD) :
    Pipeline.afterTail₀ cfgs (dats m) 0 (V0 m) [hostOps1] c main_v4
      = extractStridedSlice S8192x1000 ![0, 0] (paddedArr m c) slices_S8192x1024_S8192x1000_0_0 := by
  unfold Pipeline.afterTail₀
  show StableHlo.after hostOps1 _ (Proc.devRef .tc main_v4) = _
  after_results
  exact congrArg (fun v => extractStridedSlice S8192x1000 ![0, 0] v slices_S8192x1024_S8192x1000_0_0)
    ((Pipeline.withArrays_arr spec0 launch0.win.arr_inj c (V0 m c) (fun w => (dats m 0 c).arrAt w cfg0.N) 2).trans (final m c))

/-- The first 1000 columns of the padded result are the result. -/
theorem sliced_eq (c : Dev nD) :
    extractStridedSlice S8192x1000 ![0, 0] (paddedArr m c) slices_S8192x1024_S8192x1000_0_0
      = out (m ((c : Thread nD τ).loc main_arg0)) (m ((c : Thread nD τ).loc main_arg1)) := by
  funext i
  unfold extractStridedSlice
  have hx : xArr m c = m ((c : Thread nD τ).loc main_arg0) := V_main_arg0 m c
  rw [← hx]
  refine padded_eq_out (xArr m c) (m ((c : Thread nD τ).loc main_arg1)) (wArr m c)
    (fun cc d => Weights.prepared_apply m c cc d _) i _ ?_ ?_
  · show 0 + (i 0).val = (i 0).val
    omega
  · show 0 + (i 1).val = (i 1).val
    omega

/-- The kernel's run: it terminates with its result at out of the arguments, which it leaves unchanged. -/
theorem run : θ_run defs (onTc (τ := τ) (main (F := Ideal))) ⟨m, fun _ => 0, ρ⟩ fun r => ∀ c : Dev nD,
      r.2.mem ((c.tc : Thread nD τ).loc main_v4)
        = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans ((tail_eq m c).trans (sliced_eq m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Result

end
-- ==== Proof.RefSide.lean ====
/-
  The reference computes the same function.

  The reference takes the signs of x and of w on the host and contracts the feature axis of both:
  entry (b, c) of its result is Σ_d sign (x (b, d)) · sign (w (c, d)) over the 12288 features, which is out.
-/
import proofs.«170324_j73589969650227_2_alg».proof.Proof.SignDot
import proofs.«170324_j73589969650227_2_alg».proof.Proof.Gen.ReferenceIdeal.Read

noncomputable section

open Idealize.ShloMosaic Idealize.ShloMosaic.ValueIdx

namespace Cert.ReferenceIdeal.RefSide

open Cert.ReferenceIdeal Cert.ReferenceIdeal.Gen Cert.SignDot

/-- The reference's last stage, entry by entry, is out of its two arguments. -/
theorem ref_eq (x : (⟨S8192x12288, .f32⟩ : BufTy).Contents (Elt Ideal)) (w : (⟨S1000x12288, .f32⟩ : BufTy).Contents (Elt Ideal)) :
    Read.val_main_v2 (F := Ideal) x w = out x w := by
  funext i
  rw [Read.val_main_v2_apply]
  unfold out
  refine Finset.sum_congr rfl fun k _ => ?_
  rw [Read.val_main_v0_apply, Read.val_main_v1_apply]
  have el : Read.lidx_main_v2 i k = ix2 (i 0) k := funext fun a => Fin.ext (by
    match a with
    | ⟨0, _⟩ => rfl
    | ⟨1, _⟩ => rfl)
  have er : Read.ridx_main_v2 i k = ix2 (i 1) k := funext fun a => Fin.ext (by
    match a with
    | ⟨0, _⟩ => rfl
    | ⟨1, _⟩ => rfl)
  rw [el, er]
  rfl

end Cert.ReferenceIdeal.RefSide

end
-- ==== Proof.lean ====
/-
  The kernel computes out (b, c) = Σ_d sign (x (b, d)) · sign (w (c, d)), the sum over the 12288 features on the
  extended reals, and so does the reference.

  The kernel pads w with zero rows to 1024 rows and takes its signs on the host, then runs 4 × 32 steps: step
  t = 32·i + k adds to rows 2048·i … of the output, for each of the 1024 columns, the sum over features
  384·k … 384·k + 383 of sign x times the prepared weight; the first step of a row block starts from zero. After the
  32 steps of a row block each entry holds the sum over all 12288 features (a sum regrouped into its 32 consecutive
  blocks: only commutativity and associativity of +, so nothing needs to be finite). The host then keeps columns
  0 … 999, where the prepared weights are the signs of w. The kernel spells sign x by a select on |x| > 0 and x < 0,
  which on the extended reals is the sign function at every value. The reference takes both signs on the host and
  contracts the feature axis directly.

  The three programs terminate and leave their arguments unchanged; the idealized kernel differs from the kernel as
  printed by one rewrite (the constant 1 carrying the sign bit of x, read as a select on x < 0).
-/
import proofs.«170324_j73589969650227_2_alg».proof.Defs
import proofs.«170324_j73589969650227_2_alg».proof.Proof.Gen.Kernel
import proofs.«170324_j73589969650227_2_alg».proof.Proof.Gen.Kernel.Skeleton
import proofs.«170324_j73589969650227_2_alg».proof.Proof.Gen.Kernel.Launch
import proofs.«170324_j73589969650227_2_alg».proof.Proof.Gen.Kernel.Points
import proofs.«170324_j73589969650227_2_alg».proof.Proof.Gen.Kernel.Frame
import proofs.«170324_j73589969650227_2_alg».proof.Proof.Gen.KernelIdeal
import proofs.«170324_j73589969650227_2_alg».proof.Proof.Gen.KernelIdeal.Skeleton
import proofs.«170324_j73589969650227_2_alg».proof.Proof.Gen.KernelIdeal.Launch
import proofs.«170324_j73589969650227_2_alg».proof.Proof.Gen.KernelIdeal.Points
import proofs.«170324_j73589969650227_2_alg».proof.Proof.Gen.KernelIdeal.Frame
import proofs.«170324_j73589969650227_2_alg».proof.Proof.Gen.ReferenceIdeal
import proofs.«170324_j73589969650227_2_alg».proof.Proof.Gen.ReferenceIdeal.Run
import proofs.«170324_j73589969650227_2_alg».proof.Proof.Gen.ReferenceIdeal.Read
import proofs.«170324_j73589969650227_2_alg».proof.Proof.Gen.Pre_finite_inputs
import proofs.«170324_j73589969650227_2_alg».proof.Proof.Result
import proofs.«170324_j73589969650227_2_alg».proof.Proof.RefSide
import Idealize.ShloMosaic.Adequacy
import Idealize.ShloMosaic.Init

noncomputable section

namespace Cert.Proof

open Idealize.ShloMosaic Idealize.ShloMosaic.TcCoe Idealize.SL.Sem

/-- The kernel as printed terminates and leaves x and w unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: 1.0 carrying the sign bit of x is -1 where x < 0 and 1 elsewhere. -/
theorem preserves : Cert.preserves_Kernel_KernelIdeal :=
  IdealRules.sign_bit.statement Cert.KernelIdeal.S2048x384 .f32

/-- Both programs end with out of the arguments: the kernel by its run, the reference by its last stage read entry
    by entry, from arguments that agree. -/
theorem algebraic : Cert.algebraic_KernelIdeal_ReferenceIdeal := by
  intro m ρ m' ρ' _ hagree
  refine ⟨fun c => Cert.SignDot.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v2_eq _ _).trans (Cert.ReferenceIdeal.RefSide.ref_eq _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
